-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x256x256 : Shape := ⟨4, ![1, 1024, 256, 256]⟩
abbrev S1024x1024 : Shape := ⟨2, ![1024, 1024]⟩
abbrev S_ : Shape := ⟨0, ![]⟩

class Facts : Prop where
  bcast_S_S1x1024x256x256 : S_.BroadcastsInDim S1x1024x256x256 (![] : Fin 0 → Fin S1x1024x256x256.rank)
  reducesTo_S1x1024x256x256_S_d0_1_2_3 : S1x1024x256x256.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x1024x256x256 .f32) (main_arg1 : FVec F S1024x1024 .f32) (main_arg2 : IVec S1024x1024 1) : IVec S_ 1 :=
  let main_v0 : FVec F S1x1024x256x256 .f32 := Host.absf main_arg0
  let main_cst : FVec F S_ .f32 := constant S_ .f32 0x7F800000#32
  let main_v1 : FVec F S1x1024x256x256 .f32 := broadcastInDim S1x1024x256x256 ![] bcast_S_S1x1024x256x256 main_cst
  let main_v2 : IVec S1x1024x256x256 1 := cmpf .olt main_v0 main_v1
  let main_c : IVec S_ 1 := constantI S_ 1 1#1
  let main_v3 : IVec S_ 1 := (fun x v => Host.reduce IntOp.andi x v reducesTo_S1x1024x256x256_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S1x1024x256x256 : Shape := ⟨4, ![1, 1024, 256, 256]⟩
abbrev S1024x1024 : Shape := ⟨2, ![1024, 1024]⟩
abbrev S1024x65536 : Shape := ⟨2, ![1024, 65536]⟩
abbrev S_ : Shape := ⟨0, ![]⟩

abbrev nBuf : Space → Nat
  | .hbm => 10
  | .vmem => 5
  | .smem => 0
  | _ => 0

abbrev bufTy : (tb : Table) → Fin (tcTables nBuf tb) → BufTy
  | .hbm, ⟨0, _⟩ => ⟨S1x1024x256x256, .f32⟩
  | .hbm, ⟨1, _⟩ => ⟨S1024x1024, .f32⟩
  | .hbm, ⟨2, _⟩ => ⟨S1024x1024, .i1⟩
  | .hbm, ⟨3, _⟩ => ⟨S1024x65536, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x65536, .f32⟩
  | .hbm, ⟨9, _⟩ => ⟨S1x1024x256x256, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S1x1024x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x1024x256x256_S1024x65536 : S1x1024x256x256.ShapeCasts S1024x65536
  bcast_S_S1024x1024 : S_.BroadcastsInDim S1024x1024 (![] : Fin 0 → Fin S1024x1024.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S1024x65536_S1x1024x256x256 : S1024x65536.ShapeCasts S1x1024x256x256
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x65536.size a
  hwx0_1 : ∀ i : grid0.Coords, EltTy.bits .f32 = 32 ∨ (Rect.block (s := S1024x65536) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x65536.size a
  hwx0_2 : ∀ i : grid0.Coords, EltTy.bits .f32 = 32 ∨ (Rect.block (s := S1024x65536) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1024x256x256 : Shape := ⟨4, ![1, 1024, 256, 256]⟩
abbrev S1024x1024 : Shape := ⟨2, ![1024, 1024]⟩
abbrev S1024x65536 : Shape := ⟨2, ![1024, 65536]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1x1024x256x256, .f32⟩
  | .hbm, ⟨1, _⟩ => ⟨S1024x1024, .f32⟩
  | .hbm, ⟨2, _⟩ => ⟨S1024x1024, .i1⟩
  | .hbm, ⟨3, _⟩ => ⟨S1024x65536, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x65536, .f32⟩
  | .hbm, ⟨9, _⟩ => ⟨S1x1024x256x256, .f32⟩
  | _, _ => ⟨S1x1024x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]

class Facts₀ : Prop where
  shapeCasts_S1x1024x256x256_S1024x65536 : S1x1024x256x256.ShapeCasts S1024x65536
  bcast_S_S1024x1024 : S_.BroadcastsInDim S1024x1024 (![] : Fin 0 → Fin S1024x1024.rank)
  shapeCasts_S1024x65536_S1x1024x256x256 : S1024x65536.ShapeCasts S1x1024x256x256
  dot_S1024x1024_S1024x65536_S1024x65536_1_0_0_1_n_n_wf : DotDims.WF S1024x1024 S1024x65536 S1024x65536 [1] [0] [0] [1] [] []

variable [Facts₀]

def dot_S1024x1024_S1024x65536_S1024x65536_1_0_0_1_n_n : DotDims S1024x1024 S1024x65536 S1024x65536 where
  lhsContracting := [1]
  rhsContracting := [0]
  lhsNonContracting := [0]
  rhsNonContracting := [1]
  lhsBatch := []
  rhsBatch := []
  wf := dot_S1024x1024_S1024x65536_S1024x65536_1_0_0_1_n_n_wf

class Facts : Prop extends Facts₀ where

variable [Facts]
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.Product.lean ====
/-
  The matrix both programs hold just before their last reshape.

  A weight matrix `W` of 1024 rows and 1024 columns is multiplied by a wide matrix `X` of 1024 rows and 65536 columns:
  entry `(r, j)` of the product is the sum over `k` of `W (r, k) · X (k, j)`, 1024 terms. On the extended reals that
  sum is taken in the commutative monoid of addition, so it does not depend on how the terms are ordered or grouped,
  and nothing here asks the entries to be finite.

  Two operations compute this matrix. The host's general product of `W` and `X`, with the second axis of `W`
  contracted against the first axis of `X`, is the product matrix as a whole. The kernel's matrix product into a zero
  accumulator, applied to `W` and to a band of 1024 consecutive columns of `X`, is at `(r, j)` the sum over `k` of
  `W (r, k)` times the band's entry `(k, j)`: the same sum, for the column of `X` the band's column `j` is.
-/
import proofs.«104559_j24111946400233_1_alg».proof.Proof.LibPlainDot

noncomputable section

namespace Cert.WideProduct

open Idealize.ShloMosaic Idealize.ShloMosaic.ValueIdx

/-- The weight matrix's shape, and a band's: 1024 × 1024. -/
abbrev Square : Shape := ⟨2, ![1024, 1024]⟩
/-- The wide matrix's shape, and the product's: 1024 × 65536. -/
abbrev Wide : Shape := ⟨2, ![1024, 65536]⟩

/-- The product matrix: entry `i = (r, j)` is the sum over `k` of `W (r, k) · X (k, j)`. -/
def product (W : Square.Idx → EReal) (X : Wide.Idx → EReal) : Wide.Idx → EReal :=
  fun i => ∑ k : Fin 1024, W (ix2 (i 0) k) * X (ix2 k (i 1))

/-- The product matrix at given coordinates. -/
theorem product_apply (W : Square.Idx → EReal) (X : Wide.Idx → EReal) (r : Fin 1024) (j : Fin 65536) :
    product W X (ix2 r j) = ∑ k : Fin 1024, W (ix2 r k) * X (ix2 k j) := rfl

/-- The host's general product with the dimension numbers of an ordinary matrix product IS the product matrix. -/
theorem dotGeneral_eq_product {d : DotDims Square Wide Wide} (hd : d = DotDims.plain 1024 1024 65536)
    (prec : Option ContractPrecision) (W : FVec Ideal Square .f32) (X : FVec Ideal Wide .f32) :
    Host.dotGeneral d prec W X = product W X := by
  subst hd
  funext i
  obtain ⟨r, j, rfl⟩ : ∃ (r : Fin 1024) (j : Fin 65536), i = ix2 r j := ⟨i 0, i 1, eq_ix2 i⟩
  exact Cert.PlainDot.dotGeneral_plain_apply prec .single W X r j

/-- The kernel's matrix product of two 1024 × 1024 operands into the zero accumulator, at `(r, j)`: the sum over `k` of
    the left operand's `(r, k)` times the right operand's `(k, j)`. The operands may be of any float formats: at the
    ideal values a change of format is the identity. -/
theorem matmul_band_apply {d : DotDims Square Square Square} (hd : d = DotDims.plain 1024 1024 1024)
    {φ₁ φ₂ : FTy} (prec : Option ContractPrecision) (L : FVec Ideal Square φ₁) (R : FVec Ideal Square φ₂)
    (r j : Fin 1024) :
    matmul d prec L R (constant Square .f32 0x00000000#32) (ix2 r j) = ∑ k : Fin 1024, L (ix2 r k) * R (ix2 k j) := by
  subst hd
  exact Cert.PlainDot.matmul_plain_apply prec L R r j

end Cert.WideProduct

end
-- ==== Proof.Bands.lean ====
/-
  What the kernel's region leaves in its output array.

  The region runs over 64 grid points. At point `t` the body is given the whole weight matrix `W` (the same 1024 × 1024
  block at every point), the band of columns `1024·t … 1024·t + 1023` of the wide matrix `X`, and writes the band of the
  same columns of the output: the matrix product of `W` with the band of `X`, into a zero accumulator. Entry `(r, j)`
  of what point `t` writes is therefore the sum over `k` of `W (r, k) · X (k, 1024·t + j)`, which is entry
  `(r, 1024·t + j)` of the product matrix of `W` and `X`. The 64 bands tile the columns `0 … 65535` (column `q` is in
  the band of point `q / 1024`), so after the region the output array is the product matrix, whole.

  `W` and `X` are here the arrays as the region finds them; the host operations before the region compute them from
  the program's arguments: `X` is the first argument re-laid as 1024 rows, and `W` holds the second argument where
  the mask is set and zero elsewhere.
-/
import proofs.«104559_j24111946400233_1_alg».proof.Proof.Gen.KernelIdeal.Frame
import proofs.«104559_j24111946400233_1_alg».proof.Proof.Product
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Bands

open Cert.KernelIdeal Cert.KernelIdeal.Gen Cert.WideProduct

variable (m : (ℓ : Loc nD τ sig) → Buf (Elt Ideal) ℓ) (ρ : Dev nD → PrngReg)

theorem zero_offsets : (![0, 0] : Fin 2 → Nat) = fun _ => 0 := funext fun a => by fin_cases a <;> rfl

/-! ## The body's arithmetic -/

/-- What the body stores, at `(r, j)`: the sum over `k` of the first loaded block's `(r, k)` times the second's
    `(k, j)` — the casts to the same shape and the changes of float format in front of the product are the identity. -/
theorem payload_apply (x0 x1 : Vec Ideal S1024x1024 .f32) (r j : Fin 1024) :
    k0_pay1 (F := Ideal) x0 x1 (ix2 r j) = ∑ k : Fin 1024, x0 (ix2 r k) * x1 (ix2 k j) := by
  unfold k0_pay1
  simp only [shapeCast_self]
  exact matmul_band_apply rfl none _ _ r j

/-- A block of the body's result inside the product matrix: if the first loaded block is `W` and the second is the
    band of `X` that starts at column `1024·n`, then the stored entry `y` is the product matrix's entry in the same
    row and in column `1024·n` plus `y`'s column. -/
theorem band_entry (W : S1024x1024.Idx → EReal) (X : S1024x65536.Idx → EReal) (x0 x1 : Vec Ideal S1024x1024 .f32)
    (y : S1024x1024.Idx) (i : S1024x65536.Idx) (n : Nat)
    (h0 : ∀ u : S1024x1024.Idx, x0 u = W u)
    (h1 : ∀ (u : S1024x1024.Idx) (v : S1024x65536.Idx), (v 0).val = (u 0).val → (v 1).val = n * 1024 + (u 1).val → x1 u = X v)
    (hi0 : (i 0).val = (y 0).val) (hi1 : (i 1).val = n * 1024 + (y 1).val) :
    k0_pay1 (F := Ideal) x0 x1 y = product W X i := by
  obtain ⟨r, j, rfl⟩ : ∃ (r j : Fin 1024), y = ix2 r j := ⟨y 0, y 1, eq_ix2 y⟩
  rw [payload_apply]
  unfold product
  refine Finset.sum_congr rfl fun k _ => ?_
  have er : i 0 = r := Fin.ext hi0
  rw [h0, er, h1 (ix2 k j) (ix2 k (i 1)) rfl hi1]

/-! ## The grid -/

/-- The printed index maps, decided over the grid: the weight's block never moves, and at point `t` the wide
    matrix's block and the output's are block `t` along the columns. -/
theorem index_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- WHAT POINT `t` WRITES BACK is block `t` of the product matrix of the two arrays the region finds. -/
theorem flushed_eq (c : Dev nD) (t : Fin cfg0.N) :
    (dats m 0 c).flushed 2 t
      = ((cfg0.win 2).blk t).view.read (Elt Ideal) (product (V m c main_v1) (V m c main_v0)) := by
  show (cfg0.win 2).cut (grid0.coords t) ((dats m 0 c).after 2 t) = _
  rw [after0_2]
  unfold out0_2
  rw [View.canon_unit_zero zero_offsets]
  simp only [View.ld_unit_zero (S := S1024x1024) zero_offsets]
  obtain ⟨e00, e01, e10, e11, e20, e21⟩ := index_facts t
  funext y
  show k0_pay1 (F := Ideal) (iblk m c 0 t) (iblk m c 1 t) y
    = product (V m c main_v1) (V m c main_v0) (((cfg0.win 2).blk t).view.emb y)
  refine band_entry (V m c main_v1) (V m c main_v0) (iblk m c 0 t) (iblk m c 1 t) y _ t.val ?_ ?_ ?_ ?_
  · intro u
    show V m c main_v1 (((cfg0.win 0).blk t).view.emb u) = V m c main_v1 u
    refine congrArg _ (funext fun a => Fin.ext ?_)
    match a with
    | ⟨0, _⟩ => show win0_0.index t (0 : Fin 2) * 1024 + 1 * (u 0).val = (u 0).val; omega
    | ⟨1, _⟩ => show win0_0.index t (1 : Fin 2) * 1024 + 1 * (u 1).val = (u 1).val; omega
  · intro u v hv0 hv1
    show V m c main_v0 (((cfg0.win 1).blk t).view.emb u) = V m c main_v0 v
    refine congrArg _ (funext fun a => Fin.ext ?_)
    match a with
    | ⟨0, _⟩ => show win0_1.index t (0 : Fin 2) * 1024 + 1 * (u 0).val = (v 0).val; omega
    | ⟨1, _⟩ => show win0_1.index t (1 : Fin 2) * 1024 + 1 * (u 1).val = (v 1).val; omega
  · show win0_2.index t (0 : Fin 2) * 1024 + 1 * (y 0).val = (y 0).val; omega
  · show win0_2.index t (1 : Fin 2) * 1024 + 1 * (y 1).val = t.val * 1024 + (y 1).val; omega

/-- An index of the output array is in point `t`'s block iff each coordinate is in the block's range on its axis. -/
theorem mem_band (t : Fin cfg0.N) (i : S1024x65536.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v2).slice (win0_2.rect t)).set ↔ _
  rw [View.set_slice_whole, Rect.mem_set_unit]
  exact Iff.rfl

/-- The bands tile the output array: column `q` lies in the band of point `q / 1024`. -/
theorem covered (i : S1024x65536.Idx) :
    ∃ t : Fin cfg0.N, (cfg0.win 2).flush t = true ∧ i ∈ ((cfg0.win 2).blk t).view.set := by
  have hi0 : (i 0).val < 1024 := (i 0).isLt
  have hi1 : (i 1).val < 65536 := (i 1).isLt
  have hN : cfg0.N = 64 := N_0
  let t : Fin cfg0.N := ⟨(i 1).val / 1024, by rw [hN]; omega⟩
  obtain ⟨-, -, -, -, e20, e21⟩ := index_facts t
  have ht : t.val = (i 1).val / 1024 := rfl
  refine ⟨t, flush0_2 t, ?_⟩
  rw [mem_band]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE OUTPUT ARRAY after the region: the product matrix of the two arrays the region finds. -/
theorem final (c : Dev nD) : (dats m 0 c).arrAt 2 cfg0.N = product (V m c main_v1) (V m c main_v0) :=
  (dats m 0 c).arrAt_eq_of_cover 2 (product (V m c main_v1) (V m c main_v0)) (fun t _ => flushed_eq m c t) covered

end Cert.KernelIdeal.Bands

end
-- ==== Proof.WholeRun.lean ====
/-
  The kernel's whole run, with its result named.

  Before the region the host re-lays the first argument `x`, of shape [1, 1024, 256, 256], as the wide matrix of 1024
  rows and 65536 columns, and builds the weight matrix: the second argument `w` where the mask is set, zero elsewhere.
  The region leaves the product matrix of the two in its output array, and the one host operation after the region
  re-lays that matrix as [1, 1024, 256, 256]. So the program's result is `result x w mask` below, a function of the
  argument arrays alone, and the argument arrays end as they were launched.
-/
import proofs.«104559_j24111946400233_1_alg».proof.Proof.Bands

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.WholeRun

open Cert.KernelIdeal Cert.KernelIdeal.Gen Cert.WideProduct Cert.KernelIdeal.Bands

/-- The weight matrix: the weights where the mask is set, zero elsewhere. -/
def maskedWeights (w : S1024x1024.Idx → EReal) (mask : IVec S1024x1024 1) : S1024x1024.Idx → EReal :=
  select mask w (broadcastInDim S1024x1024 ![] bcast_S_S1024x1024 (id (constant (F := Ideal) S_ .f32 0x00000000#32)))

/-- The wide matrix: the [1, 1024, 256, 256] array re-laid as 1024 rows of 65536 entries. -/
def wideMatrix (x : S1x1024x256x256.Idx → EReal) : S1024x65536.Idx → EReal :=
  shapeCast S1024x65536 x shapeCasts_S1x1024x256x256_S1024x65536

/-- THE RESULT as a function of the argument arrays: the product matrix of the masked weights and the wide matrix,
    re-laid as [1, 1024, 256, 256]. -/
def result (x : S1x1024x256x256.Idx → EReal) (w : S1024x1024.Idx → EReal) (mask : IVec S1024x1024 1) :
    S1x1024x256x256.Idx → EReal :=
  shapeCast S1x1024x256x256 (product (maskedWeights w mask) (wideMatrix x)) shapeCasts_S1024x65536_S1x1024x256x256

variable (m : (ℓ : Loc nD τ sig) → Buf (Elt Ideal) ℓ) (ρ : Dev nD → PrngReg)

/-- The weight matrix as the region finds it: the host's select of the second argument under the mask. -/
theorem entry_weights (c : Dev nD) :
    (V m c main_v1 : S1024x1024.Idx → EReal)
      = maskedWeights (m ((c : Thread nD τ).loc main_arg1)) (m ((c : Thread nD τ).loc main_arg2)) := by
  dsimp only [V, V0]
  simp only [hostOps0, hostOps0_1, List.flatten_cons, List.flatten_nil, List.append_nil, List.cons_append,
    List.nil_append]
  after_results
  rfl

/-- The wide matrix as the region finds it: the host's reshape of the first argument. -/
theorem entry_wide (c : Dev nD) :
    (V m c main_v0 : S1024x65536.Idx → EReal) = wideMatrix (m ((c : Thread nD τ).loc main_arg0)) := by
  dsimp only [V, V0]
  simp only [hostOps0, hostOps0_1, List.flatten_cons, List.flatten_nil, List.append_nil, List.cons_append,
    List.nil_append]
  after_results
  rfl

/-- The host operation after the region re-lays the region's output array. -/
theorem tail_result (c : Dev nD) :
    Pipeline.afterTail₀ cfgs (dats m) 0 (V0 m) [hostOps1] c main_v3
      = shapeCast S1x1024x256x256 ((dats m 0 c).arrAt 2 cfg0.N) shapeCasts_S1024x65536_S1x1024x256x256 := by
  unfold Pipeline.afterTail₀
  show StableHlo.after hostOps1 _ (Proc.devRef .tc main_v3) = _
  after_results
  exact congrArg (fun z => shapeCast S1x1024x256x256 z shapeCasts_S1024x65536_S1x1024x256x256)
    (Pipeline.withArrays_arr spec0 launch0.win.arr_inj c _ _ 2)

/-- THE RUN: every weakly fair execution terminates with the result array at `result` of the argument arrays and the
    argument arrays unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(((h c).2 main_v3 (Pipeline.mem_restRefs_of main_v3 (by decide) (by decide))).trans (tail_result m c)).trans (by
          rw [final, entry_weights, entry_wide]; rfl),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.WholeRun

end
-- ==== Proof.Reference.lean ====
/-
  The reference's result is the kernel's.

  The reference re-lays its first argument as the wide matrix of 1024 rows and 65536 columns, builds the weight matrix
  (the second argument where the mask is set, zero elsewhere), takes the host's general product of the two with the
  dimension numbers of an ordinary matrix product, and re-lays the product as [1, 1024, 256, 256]. The host's general
  product is the product matrix (entry `(r, j)` the sum over `k` of the weight's `(r, k)` times the wide matrix's
  `(k, j)`), so the reference's composed term is the kernel's `result` of the same three arrays: the two programs
  differ only in how the columns of that one matrix are cut into bands, and a sum of 1024 extended reals does not
  depend on the cut.
-/
import proofs.«104559_j24111946400233_1_alg».proof.Proof.Gen.ReferenceIdeal.Run
import proofs.«104559_j24111946400233_1_alg».proof.Proof.WholeRun

noncomputable section

open Idealize.ShloMosaic Idealize.ShloMosaic.TcCoe Idealize.SL.Sem

namespace Cert.ReferenceIdeal.RefValue

open Cert.ReferenceIdeal Cert.ReferenceIdeal.Gen Cert.WideProduct

/-- The reference run's term for its result, of any three arrays, is the kernel's `result` of them. -/
theorem result_eq (x : FVec Ideal S1x1024x256x256 .f32) (w : FVec Ideal S1024x1024 .f32) (mask : IVec S1024x1024 1) :
    shapeCast S1x1024x256x256
        (Host.dotGeneral dot_S1024x1024_S1024x65536_S1024x65536_1_0_0_1_n_n none
          (select mask w (broadcastInDim S1024x1024 ![] bcast_S_S1024x1024 (id (constant (F := Ideal) S_ .f32 0x00000000#32))))
          (shapeCast S1024x65536 x shapeCasts_S1x1024x256x256_S1024x65536))
        shapeCasts_S1024x65536_S1x1024x256x256
      = Cert.KernelIdeal.WholeRun.result x w mask := by
  rw [dotGeneral_eq_product (d := dot_S1024x1024_S1024x65536_S1024x65536_1_0_0_1_n_n) rfl]
  rfl

end Cert.ReferenceIdeal.RefValue

end
-- ==== Proof.lean ====
/-
  The certificate of a masked matrix product computed band by band.

  Both programs take an array `x` of shape [1, 1024, 256, 256], a weight matrix `w` of 1024 × 1024 and a mask of the
  same shape. Both re-lay `x` as a wide matrix `X` of 1024 rows and 65536 columns, replace the weights outside the mask
  by zero to get `W`, form the matrix whose entry `(r, j)` is the sum over `k` of `W (r, k) · X (k, j)`, and re-lay it as
  [1, 1024, 256, 256]. The reference forms that matrix by one general product on the host. The kernel forms it in 64
  steps: step `t` multiplies `W` by the band of columns `1024·t … 1024·t + 1023` of `X` into a zero accumulator and writes
  the band of the same columns of the output; before the product it narrows both operands to a shorter float format,
  which at the ideal values is the identity. Each entry is the same sum of 1024 extended reals on both sides, taken in
  the commutative monoid of addition, so no finiteness of the inputs is used.

  The pieces: the product matrix and the two operations that compute it (Proof/Product.lean, over Proof/LibPlainDot.lean);
  the kernel's output array after its 64 steps (Proof/Bands.lean); the kernel's run with the host operations around the
  region (Proof/WholeRun.lean); the reference's term (Proof/Reference.lean). The three frames are the generated ones (the
  reference's is its generated run with the result dropped), and the idealization rewrote nothing, so that conjunct is
  `True`.
-/
import proofs.«104559_j24111946400233_1_alg».proof.Defs
import proofs.«104559_j24111946400233_1_alg».proof.Proof.Gen.Kernel
import proofs.«104559_j24111946400233_1_alg».proof.Proof.Gen.Kernel.Skeleton
import proofs.«104559_j24111946400233_1_alg».proof.Proof.Gen.Kernel.Launch
import proofs.«104559_j24111946400233_1_alg».proof.Proof.Gen.Kernel.Points
import proofs.«104559_j24111946400233_1_alg».proof.Proof.Gen.Kernel.Frame
import proofs.«104559_j24111946400233_1_alg».proof.Proof.Gen.KernelIdeal
import proofs.«104559_j24111946400233_1_alg».proof.Proof.Gen.KernelIdeal.Skeleton
import proofs.«104559_j24111946400233_1_alg».proof.Proof.Gen.KernelIdeal.Launch
import proofs.«104559_j24111946400233_1_alg».proof.Proof.Gen.KernelIdeal.Points
import proofs.«104559_j24111946400233_1_alg».proof.Proof.Gen.KernelIdeal.Frame
import proofs.«104559_j24111946400233_1_alg».proof.Proof.Gen.ReferenceIdeal
import proofs.«104559_j24111946400233_1_alg».proof.Proof.Gen.ReferenceIdeal.Run
import proofs.«104559_j24111946400233_1_alg».proof.Proof.Gen.Pre_finite_inputs
import proofs.«104559_j24111946400233_1_alg».proof.Proof.WholeRun
import proofs.«104559_j24111946400233_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with their result array at the one function
    `result` of those arguments: the kernel by its run read through its 64 bands, the reference because the host's
    general product is the same matrix. -/
theorem algebraic : Cert.algebraic_KernelIdeal_ReferenceIdeal := by
  intro m ρ m' ρ' _ hagree
  refine ⟨_, Cert.KernelIdeal.WholeRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
